-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S50000x1 : Shape := ⟨2, ![50000, 1]⟩
abbrev S800000 : Shape := ⟨1, ![800000]⟩
abbrev S128x128 : Shape := ⟨2, ![128, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S50000x1 : S_.BroadcastsInDim S50000x1 (![] : Fin 0 → Fin S50000x1.rank)
  reducesTo_S50000x1_S_d0_1 : S50000x1.ReducesTo [0, 1] S_
  bcast_S_S800000 : S_.BroadcastsInDim S800000 (![] : Fin 0 → Fin S800000.rank)
  reducesTo_S800000_S_d0 : S800000.ReducesTo [0] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg6 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  main_v23

def fn {F : FTy → Type} [FloatOps F] (main_arg0 : FVec F S50000x128 .f32) (main_arg1 : FVec F S50000x1 .f32) (main_arg2 : FVec F S800000 .f32) (main_arg3 : IVec S800000 32) (main_arg4 : IVec S800000 32) (main_arg5 : FVec F S128x128 .f32) (main_arg6 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S50000x1 .f32 := Host.absf main_arg1
  let main_cst_0 : FVec F S_ .f32 := constant S_ .f32 0x7F800000#32
  let main_v5 : FVec F S50000x1 .f32 := broadcastInDim S50000x1 ![] bcast_S_S50000x1 main_cst_0
  let main_v6 : IVec S50000x1 1 := cmpf .olt main_v4 main_v5
  let main_c_1 : IVec S_ 1 := constantI S_ 1 1#1
  let main_v7 : IVec S_ 1 := (fun x v => Host.reduce IntOp.andi x v reducesTo_S50000x1_S_d0_1 h_S_) main_v6 main_c_1
  let main_v8 : IVec S_ 1 := andi main_v3 main_v7
  let main_v9 : FVec F S800000 .f32 := Host.absf main_arg2
  let main_cst_2 : FVec F S_ .f32 := constant S_ .f32 0x7F800000#32
  let main_v10 : FVec F S800000 .f32 := broadcastInDim S800000 ![] bcast_S_S800000 main_cst_2
  let main_v11 : IVec S800000 1 := cmpf .olt main_v9 main_v10
  let main_c_3 : IVec S_ 1 := constantI S_ 1 1#1
  let main_v12 : IVec S_ 1 := (fun x v => Host.reduce IntOp.andi x v reducesTo_S800000_S_d0 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg6 main_v13 main_v16
-- ==== Kernel.lean ====
abbrev S50000x128 : Shape := ⟨2, ![50000, 128]⟩
abbrev S50000x1 : Shape := ⟨2, ![50000, 1]⟩
abbrev S800000 : Shape := ⟨1, ![800000]⟩
abbrev S128x128 : Shape := ⟨2, ![128, 128]⟩
abbrev S128 : Shape := ⟨1, ![128]⟩
abbrev S_ : Shape := ⟨0, ![]⟩
abbrev S800000x1 : Shape := ⟨2, ![800000, 1]⟩
abbrev S800000x128 : Shape := ⟨2, ![800000, 128]⟩
abbrev S1x128 : Shape := ⟨2, ![1, 128]⟩
abbrev S5000x128 : Shape := ⟨2, ![5000, 128]⟩
abbrev S5000x1 : Shape := ⟨2, ![5000, 1]⟩

abbrev nBuf : Space → Nat
  | .hbm => 30
  | .vmem => 10
  | .smem => 0
  | _ => 0

abbrev bufTy : (tb : Table) → Fin (tcTables nBuf tb) → BufTy
  | .hbm, ⟨0, _⟩ => ⟨S50000x128, .f32⟩
  | .hbm, ⟨1, _⟩ => ⟨S50000x1, .f32⟩
  | .hbm, ⟨2, _⟩ => ⟨S800000, .f32⟩
  | .hbm, ⟨3, _⟩ => ⟨S800000, .i32⟩
  | .hbm, ⟨4, _⟩ => ⟨S800000, .i32⟩
  | .hbm, ⟨5, _⟩ => ⟨S128x128, .f32⟩
  | .hbm, ⟨6, _⟩ => ⟨S128, .f32⟩
  | .hbm, ⟨7, _⟩ => ⟨S_, .f32⟩
  | .hbm, ⟨8, _⟩ => ⟨S800000, .f32⟩
  | .hbm, ⟨9, _⟩ => ⟨S800000, .f32⟩
  | .hbm, ⟨10, _⟩ => ⟨S800000x1, .f32⟩
  | .hbm, ⟨11, _⟩ => ⟨S_, .i32⟩
  | .hbm, ⟨12, _⟩ => ⟨S800000, .i32⟩
  | .hbm, ⟨13, _⟩ => ⟨S800000, .i1⟩
  | .hbm, ⟨14, _⟩ => ⟨S_, .i32⟩
  | .hbm, ⟨15, _⟩ => ⟨S800000, .i32⟩
  | .hbm, ⟨16, _⟩ => ⟨S800000, .i32⟩
  | .hbm, ⟨17, _⟩ => ⟨S800000, .i32⟩
  | .hbm, ⟨18, _⟩ => ⟨S800000x1, .i32⟩
  | .hbm, ⟨19, _⟩ => ⟨S800000x128, .f32⟩
  | .hbm, ⟨20, _⟩ => ⟨S800000x128, .f32⟩
  | .hbm, ⟨21, _⟩ => ⟨S800000x128, .f32⟩
  | .hbm, ⟨22, _⟩ => ⟨S_, .f32⟩
  | .hbm, ⟨23, _⟩ => ⟨S50000x128, .f32⟩
  | .hbm, ⟨24, _⟩ => ⟨S800000x1, .i32⟩
  | .hbm, ⟨25, _⟩ => ⟨S50000x128, .f32⟩
  | .hbm, ⟨26, _⟩ => ⟨S128x128, .f32⟩
  | .hbm, ⟨27, _⟩ => ⟨S128x128, .bf16⟩
  | .hbm, ⟨28, _⟩ => ⟨S1x128, .f32⟩
  | .hbm, ⟨29, _⟩ => ⟨S50000x128, .f32⟩
  | .local _ .vmem, ⟨0, _⟩ => ⟨S5000x128, .f32⟩
  | .local _ .vmem, ⟨1, _⟩ => ⟨S5000x128, .f32⟩
  | .local _ .vmem, ⟨2, _⟩ => ⟨S5000x1, .f32⟩
  | .local _ .vmem, ⟨3, _⟩ => ⟨S5000x1, .f32⟩
  | .local _ .vmem, ⟨4, _⟩ => ⟨S5000x128, .f32⟩
  | .local _ .vmem, ⟨5, _⟩ => ⟨S5000x128, .f32⟩
  | .local _ .vmem, ⟨6, _⟩ => ⟨S128x128, .bf16⟩
  | .local _ .vmem, ⟨7, _⟩ => ⟨S1x128, .f32⟩
  | .local _ .vmem, ⟨8, _⟩ => ⟨S5000x128, .f32⟩
  | .local _ .vmem, ⟨9, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_c : Ref sig .tc := ⟨.hbm, 11, rfl⟩
abbrev main_v3 : Ref sig .tc := ⟨.hbm, 12, rfl⟩
abbrev main_v4 : Ref sig .tc := ⟨.hbm, 13, rfl⟩
abbrev main_c_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_1 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  bcast_S_S800000 : S_.BroadcastsInDim S800000 (![] : Fin 0 → Fin S800000.rank)
  bcast_S800000_S800000x1_0 : S800000.BroadcastsInDim S800000x1 (![0] : Fin 1 → Fin S800000x1.rank)
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  transposes_S128x128_S128x128_1_0 : S128x128.Transposes [1, 0] S128x128
  bitsLt_bf16_f32 : FTy.bits .bf16 < FTy.bits .f32
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  inb_S5000x1_S5000x1_0_0 : ∀ a, (![0, 0] : Fin 2 → Nat) a + S5000x1.size a ≤ S5000x1.size a
  h_S5000x1 : 0 < S5000x1.numel
  broadcasts_S5000x1_S5000x128 : S5000x1.Broadcasts S5000x128
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x1.size a ≤ S50000x1.size a
  hwx0_1 : ∀ i : grid0.Coords, EltTy.bits .f32 = 32 ∨ (Rect.block (s := S50000x1) S5000x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S50000x128.size a
  hwx0_2 : ∀ i : grid0.Coords, EltTy.bits .f32 = 32 ∨ (Rect.block (s := S50000x128) S5000x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .bf16 = 32 ∨ (Rect.block (s := S128x128) S128x128.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S50000x128.size a
  hwx0_5 : ∀ i : grid0.Coords, EltTy.bits .f32 = 32 ∨ (Rect.block (s := S50000x128) S5000x128.size (cc0_transform_5 i) (hinb0_5 i)).WholeWords (EltTy.packing .f32)

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S5000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v14) S5000x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v16) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v17) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v18) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S50000x128 : Shape := ⟨2, ![50000, 128]⟩
abbrev S50000x1 : Shape := ⟨2, ![50000, 1]⟩
abbrev S800000 : Shape := ⟨1, ![800000]⟩
abbrev S128x128 : Shape := ⟨2, ![128, 128]⟩
abbrev S128 : Shape := ⟨1, ![128]⟩
abbrev S_ : Shape := ⟨0, ![]⟩
abbrev S800000x1 : Shape := ⟨2, ![800000, 1]⟩
abbrev S800000x128 : Shape := ⟨2, ![800000, 128]⟩
abbrev S1x128 : Shape := ⟨2, ![1, 128]⟩

abbrev nBuf : Space → Nat
  | .hbm => 37
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S50000x1, .f32⟩
  | .hbm, ⟨2, _⟩ => ⟨S800000, .f32⟩
  | .hbm, ⟨3, _⟩ => ⟨S800000, .i32⟩
  | .hbm, ⟨4, _⟩ => ⟨S800000, .i32⟩
  | .hbm, ⟨5, _⟩ => ⟨S128x128, .f32⟩
  | .hbm, ⟨6, _⟩ => ⟨S128, .f32⟩
  | .hbm, ⟨7, _⟩ => ⟨S_, .f32⟩
  | .hbm, ⟨8, _⟩ => ⟨S800000, .f32⟩
  | .hbm, ⟨9, _⟩ => ⟨S800000, .f32⟩
  | .hbm, ⟨10, _⟩ => ⟨S800000x1, .f32⟩
  | .hbm, ⟨11, _⟩ => ⟨S_, .i32⟩
  | .hbm, ⟨12, _⟩ => ⟨S800000, .i32⟩
  | .hbm, ⟨13, _⟩ => ⟨S800000, .i1⟩
  | .hbm, ⟨14, _⟩ => ⟨S_, .i32⟩
  | .hbm, ⟨15, _⟩ => ⟨S800000, .i32⟩
  | .hbm, ⟨16, _⟩ => ⟨S800000, .i32⟩
  | .hbm, ⟨17, _⟩ => ⟨S800000, .i32⟩
  | .hbm, ⟨18, _⟩ => ⟨S800000x1, .i32⟩
  | .hbm, ⟨19, _⟩ => ⟨S800000x128, .f32⟩
  | .hbm, ⟨20, _⟩ => ⟨S800000x128, .f32⟩
  | .hbm, ⟨21, _⟩ => ⟨S800000x128, .f32⟩
  | .hbm, ⟨22, _⟩ => ⟨S_, .f32⟩
  | .hbm, ⟨23, _⟩ => ⟨S50000x128, .f32⟩
  | .hbm, ⟨24, _⟩ => ⟨S800000x1, .i32⟩
  | .hbm, ⟨25, _⟩ => ⟨S50000x128, .f32⟩
  | .hbm, ⟨26, _⟩ => ⟨S_, .f32⟩
  | .hbm, ⟨27, _⟩ => ⟨S50000x1, .f32⟩
  | .hbm, ⟨28, _⟩ => ⟨S50000x1, .f32⟩
  | .hbm, ⟨29, _⟩ => ⟨S50000x128, .f32⟩
  | .hbm, ⟨30, _⟩ => ⟨S50000x128, .f32⟩
  | .hbm, ⟨31, _⟩ => ⟨S50000x128, .f32⟩
  | .hbm, ⟨32, _⟩ => ⟨S128x128, .f32⟩
  | .hbm, ⟨33, _⟩ => ⟨S50000x128, .f32⟩
  | .hbm, ⟨34, _⟩ => ⟨S1x128, .f32⟩
  | .hbm, ⟨35, _⟩ => ⟨S50000x128, .f32⟩
  | .hbm, ⟨36, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_c : Ref sig .tc := ⟨.hbm, 11, rfl⟩
abbrev main_v3 : Ref sig .tc := ⟨.hbm, 12, rfl⟩
abbrev main_v4 : Ref sig .tc := ⟨.hbm, 13, rfl⟩
abbrev main_c_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_1 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_2 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩

abbrev nD : Nat := 1
abbrev τ : Topo := Topo.v7x

variable {F : FTy → Type} [FloatOps F]

class Facts₀ : Prop where
  bcast_S_S800000 : S_.BroadcastsInDim S800000 (![] : Fin 0 → Fin S800000.rank)
  bcast_S800000_S800000x1_0 : S800000.BroadcastsInDim S800000x1 (![0] : Fin 1 → Fin S800000x1.rank)
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  bcast_S_S50000x1 : S_.BroadcastsInDim S50000x1 (![] : Fin 0 → Fin S50000x1.rank)
  bcast_S50000x1_S50000x128_0_1 : S50000x1.BroadcastsInDim S50000x128 (![0, 1] : Fin 2 → Fin S50000x128.rank)
  transposes_S128x128_S128x128_1_0 : S128x128.Transposes [1, 0] S128x128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x128_S50000x128_1_0_0_1_n_n_wf : DotDims.WF S50000x128 S128x128 S50000x128 [1] [0] [0] [1] [] []

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf

class Facts : Prop extends Facts₀ where

variable [Facts]
-- ==== Proof.LibColumnBroadcast.lean ====
/-
  A column broadcast across a row, read at an index.

  An array of shape [a, 1] holds one number per row. Broadcasting it to [a, b] repeats that number along the
  row, so the entry at (p, c) is the operand's entry at (p, 0), whatever the column c. This is the companion of
  the library's `broadcastTo_1b_ab_apply` (one ROW repeated down the columns).
-/
import Idealize.ShloMosaic.Lib.ValueIdx
import Idealize.ShloMosaic.Lib.Pipeline.Value

namespace Idealize.ShloMosaic.ValueIdx

open Idealize.ShloMosaic

variable {α : Type}

/-- An `[a, 1]` array broadcast to `[a, b]` reads, at `(p, c)`, the operand's one entry of row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ValueIdx
-- ==== Proof.Body.lean ====
/-
  The kernel body's arithmetic at one entry of its block.

  At a grid point the body holds a block of 5000 rows: `x0` (features, 5000 × 128), `x1` (self-loop weights,
  5000 × 1), `x2` (aggregated messages, 5000 × 128), and the grid-invariant `x3` (transposed weights, 128 × 128) and
  `x4` (bias as one row, 1 × 128). Its single store writes

      (x0 · (x1 + 1) + x2) · x3 + x4

  — the column `x1 + 1` repeated along each row, the bias row repeated down the rows, the product a matrix
  product into a zero accumulator. Over the extended reals the narrowing to a 16-bit format before the product is
  the identity, and a matrix product into a zero accumulator is the plain sum over the contracted index. So at
  row `p`, column `q` of the block the stored value is

      ( Σ_{k < 128} ( x0 p k · (x1 p 0 + 1) + x2 p k ) · x3 k q ) + x4 0 q.
-/
import proofs.«182071_j22101901705838_2_alg».proof.Proof.Gen.KernelIdeal.Skeleton
import proofs.«182071_j22101901705838_2_alg».proof.Proof.LibColumnBroadcast
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Body

open Cert.KernelIdeal Cert.KernelIdeal.Gen Idealize.ShloMosaic Idealize.ShloMosaic.ValueIdx

/-- The left operand of the body's matrix product at output entry `(p, q)` and contraction index `k` is read at
    row `p`: the output's row axis is the left operand's free axis. -/
theorem lhs_row (i : S5000x128.Idx) (κ : dot_S5000x128_S128x128_S5000x128_1_0_0_1_n_n.contr.Idx) :
    (dot_S5000x128_S128x128_S5000x128_1_0_0_1_n_n.lhsIdx i κ 0).val = (i 0).val := by
  unfold DotDims.lhsIdx
  rw [dif_neg (show ¬(0 : Fin S5000x128.rank) ∈ dot_S5000x128_S128x128_S5000x128_1_0_0_1_n_n.lhsBatch by decide),
    dif_pos (show (0 : Fin S5000x128.rank) ∈ dot_S5000x128_S128x128_S5000x128_1_0_0_1_n_n.lhsNonContracting by decide)]
  rfl

/-- The right operand is read at column `q`: the output's column axis is the right operand's free axis. -/
theorem rhs_col (i : S5000x128.Idx) (κ : dot_S5000x128_S128x128_S5000x128_1_0_0_1_n_n.contr.Idx) :
    (dot_S5000x128_S128x128_S5000x128_1_0_0_1_n_n.rhsIdx i κ 1).val = (i 1).val := by
  unfold DotDims.rhsIdx
  rw [dif_neg (show ¬(1 : Fin S128x128.rank) ∈ dot_S5000x128_S128x128_S5000x128_1_0_0_1_n_n.rhsBatch by decide),
    dif_pos (show (1 : Fin S128x128.rank) ∈ dot_S5000x128_S128x128_S5000x128_1_0_0_1_n_n.rhsNonContracting by decide)]
  rfl

/-- The body's matrix product into the zero accumulator, at entry `(p, q)`: the sum over `k < 128` of the left
    operand at `(p, k)` times the right operand at `(k, q)`. -/
theorem product_at (l : FVec Ideal S5000x128 .bf16) (r : FVec Ideal S128x128 .bf16) (p : Fin 5000) (q : Fin 128) :
    matmul (F := Ideal) dot_S5000x128_S128x128_S5000x128_1_0_0_1_n_n none l r (constant (F := Ideal) S5000x128 .f32 0x00000000#32) (ix2 p q)
      = ∑ k : Fin 128, l (ix2 p k) * r (ix2 k q) := by
  simp only [matmul]
  rw [Ideal.matmul_constant_zero_apply,
    ← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 p q)
      ((contrEquiv1 dot_S5000x128_S128x128_S5000x128_1_0_0_1_n_n 128 rfl rfl).symm k) = ix2 p k :=
    funext fun a => Fin.ext (by
      match a with
      | ⟨0, _⟩ => exact lhs_row _ _
      | ⟨1, _⟩ => exact (dot_S5000x128_S128x128_S5000x128_1_0_0_1_n_n.lhsIdx_val_of_single rfl _ _).trans hk)
  have er : dot_S5000x128_S128x128_S5000x128_1_0_0_1_n_n.rhsIdx (ix2 p q)
      ((contrEquiv1 dot_S5000x128_S128x128_S5000x128_1_0_0_1_n_n 128 rfl rfl).symm k) = ix2 k q :=
    funext fun a => Fin.ext (by
      match a with
      | ⟨0, _⟩ => exact (dot_S5000x128_S128x128_S5000x128_1_0_0_1_n_n.rhsIdx_val_of_single rfl _ _).trans hk
      | ⟨1, _⟩ => exact rhs_col _ _)
  rw [el, er]

/-- The body's stored value at row `p`, column `q` of the block. -/
theorem stored_at (x0 : Vec Ideal S5000x128 .f32) (x1 : Vec Ideal S5000x1 .f32) (x2 : Vec Ideal S5000x128 .f32)
    (x3 : Vec Ideal S128x128 .bf16) (x4 : Vec Ideal S1x128 .f32) (p : Fin 5000) (q : Fin 128) :
    k0_pay1 (F := Ideal) x0 x1 x2 x3 x4 (ix2 p q)
      = (∑ k : Fin 128, (x0 (ix2 p k) * (x1 (ix2 p (0 : Fin 1)) + Ideal.ofBits .f32 0x3F800000#32) + x2 (ix2 p k)) * x3 (ix2 k q))
        + x4 (ix2 (0 : Fin 1) q) := by
  unfold k0_pay1
  simp only [shapeCast_self]
  rw [addf_apply, product_at, broadcastTo_1b_ab_apply]
  congr 1
  refine Finset.sum_congr rfl fun k _ => ?_
  rw [truncf_apply, addf_apply, mulf_apply, broadcastTo_a1_ab_apply, addf_apply, broadcast_apply]
  rfl

end Cert.KernelIdeal.Body

end
-- ==== Proof.Layer.lean ====
/-
  The specification: one graph-convolution layer, entry by entry, over the extended reals.

  For a node `r` (a row, 0 ≤ r < 50000) and an output feature `q` (a column, 0 ≤ q < 128) the layer's output is

      out r q  =  ( Σ_{k < 128}  ( x r k · (s r + 1) + agg r k ) · wt k q )  +  b q

  where `x` holds the node features, `s` the per-node self-loop weight (one column), `agg` the messages already
  summed into their destination nodes, `wt` the TRANSPOSED weight matrix (input feature k, output feature q), and
  `b` the bias. The constant `1` is kept as the float word `0x3F800000` both programs print, so it is never
  evaluated: the two sides meet on the same word.

  Nothing here needs an entry to be finite: the two programs apply the same operations in the same order, so no
  law of the extended reals beyond reading each operation at an index is used.
-/
import Idealize.ShloMosaic.PureOps.Ideal
import Idealize.ShloMosaic.Lib.ValueIdx

noncomputable section

open scoped BigOperators

namespace Cert.Layer

open Idealize.ShloMosaic Idealize.ShloMosaic.ValueIdx

/-- The layer's output at node `r`, output feature `q`, from the feature array `x`, the self-loop column `s`, the
    aggregated messages `agg`, the transposed weights `wt` and the bias `b`: the affine combination
    `x r k · (s r + 1) + agg r k` contracted over `k` against `wt k q`, plus `b q`. -/
def entry (x : (⟨2, ![50000, 128]⟩ : Shape).Idx → EReal) (s : (⟨2, ![50000, 1]⟩ : Shape).Idx → EReal)
    (agg : (⟨2, ![50000, 128]⟩ : Shape).Idx → EReal) (wt : (⟨2, ![128, 128]⟩ : Shape).Idx → EReal)
    (b : (⟨1, ![128]⟩ : Shape).Idx → EReal) (r : Fin 50000) (q : Fin 128) : EReal :=
  (∑ k : Fin 128, (x (ix2 r k) * (s (ix2 r (0 : Fin 1)) + Ideal.ofBits .f32 0x3F800000#32) + agg (ix2 r k)) * wt (ix2 k q))
    + b (ix1 q)

/-- The layer's output array: `entry` at each index's two coordinates. -/
def out (x : (⟨2, ![50000, 128]⟩ : Shape).Idx → EReal) (s : (⟨2, ![50000, 1]⟩ : Shape).Idx → EReal)
    (agg : (⟨2, ![50000, 128]⟩ : Shape).Idx → EReal) (wt : (⟨2, ![128, 128]⟩ : Shape).Idx → EReal)
    (b : (⟨1, ![128]⟩ : Shape).Idx → EReal) : (⟨2, ![50000, 128]⟩ : Shape).Idx → EReal :=
  fun i => entry x s agg wt b (i 0) (i 1)

/-- The output array read at the index with coordinates `(r, q)`. -/
theorem out_apply (x : (⟨2, ![50000, 128]⟩ : Shape).Idx → EReal) (s : (⟨2, ![50000, 1]⟩ : Shape).Idx → EReal)
    (agg : (⟨2, ![50000, 128]⟩ : Shape).Idx → EReal) (wt : (⟨2, ![128, 128]⟩ : Shape).Idx → EReal)
    (b : (⟨1, ![128]⟩ : Shape).Idx → EReal) (r : Fin 50000) (q : Fin 128) :
    out x s agg wt b (ix2 r q) = entry x s agg wt b r q := rfl

end Cert.Layer

end
-- ==== Proof.Blocks.lean ====
/-
  From the ten row blocks to the whole output array.

  The grid has ten points. At point `t` the three moving windows (features, self-loop column, aggregated messages)
  and the output window all sit on rows `5000·t … 5000·t + 4999` of their arrays; the weights and the bias row are the
  same whole arrays at every point. So row `p` of the block at point `t` is row `5000·t + p` of the array, and by the
  body's arithmetic (`Body.stored_at`) what point `t` writes back is rows `5000·t …` of the layer's output computed
  from the arrays as the region finds them. The ten blocks tile the 50000 rows (row `r` lies in the block of point
  `r / 5000`), so after the run the output array is the layer's output everywhere.

  The five arrays the region reads are named by variables `a0 … a4` with the hypothesis that the region finds
  exactly them: what they are as terms of the program's arguments is a separate matter (`HostPrefix`), and nothing
  here depends on it.
-/
import proofs.«182071_j22101901705838_2_alg».proof.Proof.Gen.KernelIdeal.Value
import proofs.«182071_j22101901705838_2_alg».proof.Proof.Body
import proofs.«182071_j22101901705838_2_alg».proof.Proof.Layer
import Idealize.ShloMosaic.Lib.Pipeline.Value
import Idealize.ShloMosaic.Lib.ValueIdx
import Idealize.ShloMosaic.Lib.Tactic

noncomputable section

open scoped BigOperators

namespace Cert.KernelIdeal.Blocks

open Cert.KernelIdeal Cert.KernelIdeal.Gen Cert.KernelIdeal.Value Idealize.ShloMosaic Idealize.ShloMosaic.TcCoe
open Idealize.SL.Sem Idealize.ShloMosaic.ValueIdx
open Idealize.ShloMosaic.Pipeline (Dat)

variable (m : (ℓ : Loc nD τ sig) → Buf (Elt Ideal) ℓ) (ρ : Dev nD → PrngReg)

theorem zero_offsets : (![0, 0] : Fin 2 → Nat) = fun _ => 0 := funext fun a => by fin_cases a <;> rfl

/-! ## The body's stored value as an entry of the layer's output -/

/-- If row `p` of the three moving blocks is row `r` of three arrays `a0`, `a1`, `a2`, the weights block agrees with
    `wt` down column `q` and the bias row holds `b q` at column `q`, then the value the body stores at `(p, q)` is the
    layer's output at `(r, q)` for those arrays. -/
theorem stored_is_entry (x0 : Vec Ideal S5000x128 .f32) (x1 : Vec Ideal S5000x1 .f32) (x2 : Vec Ideal S5000x128 .f32)
    (x3 : Vec Ideal S128x128 .bf16) (x4 : Vec Ideal S1x128 .f32)
    (a0 : S50000x128.Idx → EReal) (a1 : S50000x1.Idx → EReal) (a2 : S50000x128.Idx → EReal)
    (wt : S128x128.Idx → EReal) (b : S128.Idx → EReal) (p : Fin 5000) (q : Fin 128) (r : Fin 50000)
    (h0 : ∀ k : Fin 128, x0 (ix2 p k) = a0 (ix2 r k))
    (h1 : x1 (ix2 p (0 : Fin 1)) = a1 (ix2 r (0 : Fin 1)))
    (h2 : ∀ k : Fin 128, x2 (ix2 p k) = a2 (ix2 r k))
    (h3 : ∀ k : Fin 128, x3 (ix2 k q) = wt (ix2 k q))
    (h4 : x4 (ix2 (0 : Fin 1) q) = b (ix1 q)) :
    k0_pay1 (F := Ideal) x0 x1 x2 x3 x4 (ix2 p q) = Cert.Layer.entry a0 a1 a2 wt b r q := by
  rw [Body.stored_at, h1, h4]
  unfold Cert.Layer.entry
  congr 1
  exact Finset.sum_congr rfl fun k _ => by rw [h0 k, h2 k, h3 k]

/-! ## Where each window's block sits -/

/-- The printed index maps, decided over the ten grid points: the three moving inputs and the output are on row
    block `t`, column block `0`; the weights and the bias row never move. -/
theorem block_index : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- Row `p` of the feature block at point `t` is row `5000·t + p` of the feature array. -/
theorem features_block (c : Dev nD) (t : Fin cfg0.N) (a0 : S50000x128.Idx → EReal)
    (h0 : V m c (Pipeline.arrRef spec0 0) = a0) (p : Fin 5000) (k : Fin 128) (r : Fin 50000)
    (hr : r.val = 5000 * t.val + p.val) :
    (iblk m c 0 t : Vec Ideal S5000x128 .f32) (ix2 p k) = a0 (ix2 r k) := by
  obtain ⟨e0, e1, -⟩ := block_index t
  unfold iblk
  rw [h0, View.read_apply]
  refine congrArg a0 ?_
  funext a
  apply Fin.ext
  match a with
  | ⟨0, _⟩ => show win0_0.index t (0 : Fin 2) * 5000 + 1 * p.val = r.val; rw [e0, hr]; omega
  | ⟨1, _⟩ => show win0_0.index t (1 : Fin 2) * 128 + 1 * k.val = k.val; rw [e1]; omega

/-- Row `p` of the self-loop block at point `t` is row `5000·t + p` of the self-loop column. -/
theorem selfloop_block (c : Dev nD) (t : Fin cfg0.N) (a1 : S50000x1.Idx → EReal)
    (h1 : V m c (Pipeline.arrRef spec0 1) = a1) (p : Fin 5000) (r : Fin 50000)
    (hr : r.val = 5000 * t.val + p.val) :
    (iblk m c 1 t : Vec Ideal S5000x1 .f32) (ix2 p (0 : Fin 1)) = a1 (ix2 r (0 : Fin 1)) := by
  obtain ⟨-, -, e0, e1, -⟩ := block_index t
  unfold iblk
  rw [h1, View.read_apply]
  refine congrArg a1 ?_
  funext a
  apply Fin.ext
  match a with
  | ⟨0, _⟩ => show win0_1.index t (0 : Fin 2) * 5000 + 1 * p.val = r.val; rw [e0, hr]; omega
  | ⟨1, _⟩ => show win0_1.index t (1 : Fin 2) * 1 + 1 * 0 = 0; rw [e1]

/-- Row `p` of the aggregated-messages block at point `t` is row `5000·t + p` of that array. -/
theorem messages_block (c : Dev nD) (t : Fin cfg0.N) (a2 : S50000x128.Idx → EReal)
    (h2 : V m c (Pipeline.arrRef spec0 2) = a2) (p : Fin 5000) (k : Fin 128) (r : Fin 50000)
    (hr : r.val = 5000 * t.val + p.val) :
    (iblk m c 2 t : Vec Ideal S5000x128 .f32) (ix2 p k) = a2 (ix2 r k) := by
  obtain ⟨-, -, -, -, e0, e1, -⟩ := block_index t
  unfold iblk
  rw [h2, View.read_apply]
  refine congrArg a2 ?_
  funext a
  apply Fin.ext
  match a with
  | ⟨0, _⟩ => show win0_2.index t (0 : Fin 2) * 5000 + 1 * p.val = r.val; rw [e0, hr]; omega
  | ⟨1, _⟩ => show win0_2.index t (1 : Fin 2) * 128 + 1 * k.val = k.val; rw [e1]; omega

/-- The weights block at every point is the whole transposed-weights array. -/
theorem weights_block (c : Dev nD) (t : Fin cfg0.N) (a3 : S128x128.Idx → EReal)
    (h3 : V m c (Pipeline.arrRef spec0 3) = a3) (k q : Fin 128) :
    (iblk m c 3 t : Vec Ideal S128x128 .bf16) (ix2 k q) = a3 (ix2 k q) := by
  obtain ⟨-, -, -, -, -, -, e0, e1, -⟩ := block_index t
  unfold iblk
  rw [h3, View.read_apply]
  refine congrArg a3 ?_
  funext a
  apply Fin.ext
  match a with
  | ⟨0, _⟩ => show win0_3.index t (0 : Fin 2) * 128 + 1 * k.val = k.val; rw [e0]; omega
  | ⟨1, _⟩ => show win0_3.index t (1 : Fin 2) * 128 + 1 * q.val = q.val; rw [e1]; omega

/-- The bias block at every point is the whole one-row bias array. -/
theorem bias_block (c : Dev nD) (t : Fin cfg0.N) (a4 : S1x128.Idx → EReal)
    (h4 : V m c (Pipeline.arrRef spec0 4) = a4) (q : Fin 128) :
    (iblk m c 4 t : Vec Ideal S1x128 .f32) (ix2 (0 : Fin 1) q) = a4 (ix2 (0 : Fin 1) q) := by
  obtain ⟨-, -, -, -, -, -, -, -, e0, e1, -⟩ := block_index t
  unfold iblk
  rw [h4, View.read_apply]
  refine congrArg a4 ?_
  funext a
  apply Fin.ext
  match a with
  | ⟨0, _⟩ => show win0_4.index t (0 : Fin 2) * 1 + 1 * 0 = 0; rw [e0]
  | ⟨1, _⟩ => show win0_4.index t (1 : Fin 2) * 128 + 1 * q.val = q.val; rw [e1]; omega

/-! ## The output array after the run -/

/-- A one-row array read column by column. -/
def rowOf (a4 : S1x128.Idx → EReal) : S128.Idx → EReal := fun j => a4 (ix2 (0 : Fin 1) (j 0))

/-- The layer's output of five arrays: features, self-loop column, aggregated messages, transposed weights, and
    the bias held as one row. -/
def result (a0 : S50000x128.Idx → EReal) (a1 : S50000x1.Idx → EReal) (a2 : S50000x128.Idx → EReal)
    (a3 : S128x128.Idx → EReal) (a4 : S1x128.Idx → EReal) : S50000x128.Idx → EReal :=
  Cert.Layer.out a0 a1 a2 a3 (rowOf a4)

section Region

variable (c : Dev nD) (a0 : S50000x128.Idx → EReal) (a1 : S50000x1.Idx → EReal) (a2 : S50000x128.Idx → EReal)
  (a3 : S128x128.Idx → EReal) (a4 : S1x128.Idx → EReal)
  (h0 : V m c (Pipeline.arrRef spec0 0) = a0) (h1 : V m c (Pipeline.arrRef spec0 1) = a1)
  (h2 : V m c (Pipeline.arrRef spec0 2) = a2) (h3 : V m c (Pipeline.arrRef spec0 3) = a3)
  (h4 : V m c (Pipeline.arrRef spec0 4) = a4)

include h0 h1 h2 h3 h4

/-- What the body stores at `(p, q)` at point `t` is the layer's output at row `5000·t + p`, column `q`. -/
theorem point_entry (t : Fin cfg0.N) (p : Fin 5000) (q : Fin 128) (r : Fin 50000)
    (hr : r.val = 5000 * t.val + p.val) :
    k0_pay1 (F := Ideal) (iblk m c 0 t) (iblk m c 1 t) (iblk m c 2 t) (iblk m c 3 t) (iblk m c 4 t) (ix2 p q)
      = Cert.Layer.entry a0 a1 a2 a3 (rowOf a4) r q :=
  stored_is_entry (iblk m c 0 t) (iblk m c 1 t) (iblk m c 2 t) (iblk m c 3 t) (iblk m c 4 t)
    a0 a1 a2 a3 (rowOf a4) p q r
    (fun k => features_block m c t a0 h0 p k r hr) (selfloop_block m c t a1 h1 p r hr)
    (fun k => messages_block m c t a2 h2 p k r hr) (fun k => weights_block m c t a3 h3 k q)
    (bias_block m c t a4 h4 q)

/-- What point `t` writes back is block `t` of the layer's output. -/
theorem flushed_eq (t : Fin cfg0.N) :
    (dats m 0 c).flushed 5 t = ((cfg0.win 5).blk t).view.read (Elt Ideal) (result a0 a1 a2 a3 a4) := by
  rw [flushed5]
  unfold out0_5
  rw [View.canon_unit_zero zero_offsets]
  simp only [View.ld_unit_zero (S := S5000x128) zero_offsets, View.ld_unit_zero (S := S5000x1) zero_offsets,
    View.ld_unit_zero (S := S128x128) zero_offsets, View.ld_unit_zero (S := S1x128) zero_offsets]
  funext j
  obtain ⟨p, q, rfl⟩ : ∃ (p : Fin 5000) (q : Fin 128), j = ix2 p q := ⟨j 0, j 1, eq_ix2 j⟩
  show k0_pay1 (F := Ideal) (iblk m c 0 t) (iblk m c 1 t) (iblk m c 2 t) (iblk m c 3 t) (iblk m c 4 t) (ix2 p q)
    = result a0 a1 a2 a3 a4 (((cfg0.win 5).blk t).view.emb (ix2 p q))
  have hT : t.val < 10 := by have h := t.isLt; have hN : cfg0.N = 10 := N_0; omega
  obtain ⟨-, -, -, -, -, -, -, -, -, -, e0, e1⟩ := block_index t
  have e : ((cfg0.win 5).blk t).view.emb (ix2 p q)
      = ix2 (⟨5000 * t.val + p.val, by have := p.isLt; omega⟩ : Fin 50000) q := by
    funext a
    apply Fin.ext
    match a with
    | ⟨0, _⟩ => show win0_5.index t (0 : Fin 2) * 5000 + 1 * p.val = 5000 * t.val + p.val; rw [e0]; omega
    | ⟨1, _⟩ => show win0_5.index t (1 : Fin 2) * 128 + 1 * q.val = q.val; rw [e1]; omega
  rw [e]
  unfold result
  rw [Cert.Layer.out_apply]
  exact point_entry m c a0 a1 a2 a3 a4 h0 h1 h2 h3 h4 t p q _ rfl

omit h0 h1 h2 h3 h4 in
/-- An index of the output array is in point `t`'s block iff each coordinate is in the block's range on its axis. -/
theorem mem_block (t : Fin cfg0.N) (i : S50000x128.Idx) :
    i ∈ ((cfg0.win 5).blk t).view.set ↔ ∀ a : Fin 2, win0_5.index t a * S5000x128.size a ≤ (i a).val
      ∧ (i a).val < win0_5.index t a * S5000x128.size a + S5000x128.size a := by
  show i ∈ ((View.whole main_v18).slice (win0_5.rect t)).set ↔ _
  rw [View.set_slice_whole, Rect.mem_set_unit]
  exact Iff.rfl

omit h0 h1 h2 h3 h4 in
/-- The ten blocks tile the array: row `r` is in the block of point `r / 5000`. -/
theorem covered (i : S50000x128.Idx) :
    ∃ t : Fin cfg0.N, (cfg0.win 5).flush t = true ∧ i ∈ ((cfg0.win 5).blk t).view.set := by
  have hi0 : (i 0).val < 50000 := (i 0).isLt
  have hi1 : (i 1).val < 128 := (i 1).isLt
  obtain ⟨t, ht⟩ : ∃ t : Fin cfg0.N, t.val = (i 0).val / 5000 :=
    ⟨⟨(i 0).val / 5000, by rw [show cfg0.N = 10 from N_0]; omega⟩, rfl⟩
  obtain ⟨-, -, -, -, -, -, -, -, -, -, e0, e1⟩ := block_index t
  refine ⟨t, flush0_5 t, ?_⟩
  rw [mem_block]
  intro a
  match a with
  | ⟨0, _⟩ =>
    show win0_5.index t (0 : Fin 2) * 5000 ≤ (i 0).val ∧ (i 0).val < win0_5.index t (0 : Fin 2) * 5000 + 5000
    rw [e0, ht]; omega
  | ⟨1, _⟩ =>
    show win0_5.index t (1 : Fin 2) * 128 ≤ (i 1).val ∧ (i 1).val < win0_5.index t (1 : Fin 2) * 128 + 128
    rw [e1]; omega

/-- The output array after the run is the layer's output of the five arrays the region finds. -/
theorem final : (dats m 0 c).arrAt 5 cfg0.N = result a0 a1 a2 a3 a4 :=
  (dats m 0 c).arrAt_eq_of_cover 5 (result a0 a1 a2 a3 a4)
    (fun t _ => flushed_eq m c a0 a1 a2 a3 a4 h0 h1 h2 h3 h4 t) covered

end Region

end Cert.KernelIdeal.Blocks

end
-- ==== Proof.HostPrefix.lean ====
/-
  What the kernel's region finds in the three arrays the host computes before it.

  Before the region the kernel's host program computes exactly what the reference computes for the same buffers:
  the messages `(w + 1) · x[src]` scatter-added into their destination rows (`agg`), the weight matrix transposed
  (then narrowed to a 16-bit format, which over the extended reals is the identity), and the bias reshaped to one
  row. So the aggregated messages the region reads are, as a term, the reference's own aggregated messages of the
  same arguments; the weights it reads are the transposed weights; and the bias array it reads is the bias reshaped to one row.
-/
import proofs.«182071_j22101901705838_2_alg».proof.Proof.Gen.KernelIdeal.Frame
import proofs.«182071_j22101901705838_2_alg».proof.Proof.Gen.ReferenceIdeal.Read
import Idealize.ShloMosaic.Lib.StableHlo.Run
import Idealize.ShloMosaic.Lib.ValueIdx
import Idealize.ShloMosaic.Lib.ValueLayout

noncomputable section

namespace Cert.KernelIdeal.HostPrefix

open Cert.KernelIdeal Cert.KernelIdeal.Gen Idealize.ShloMosaic Idealize.ShloMosaic.TcCoe Idealize.SL.Sem
open Idealize.ShloMosaic.StableHlo Idealize.ShloMosaic.ValueIdx

variable (m : (ℓ : Loc nD τ sig) → Buf (Elt Ideal) ℓ)

set_option maxHeartbeats 2000000 in
/-- The aggregated messages the region reads are the reference's scatter-added messages of the same four
    arguments (features, edge weights, source and destination node of each edge). -/
theorem agg_eq (c : Dev nD) :
    (V m c main_v14 : S50000x128.Idx → EReal)
      = Cert.ReferenceIdeal.Read.val_main_v14 (F := Ideal) (m ((c.tc : Thread nD τ).loc main_arg0))
          (m ((c.tc : Thread nD τ).loc main_arg2)) (m ((c.tc : Thread nD τ).loc main_arg3))
          (m ((c.tc : Thread nD τ).loc main_arg4)) := by
  dsimp only [V, hostOps0]
  after_results
  rfl

set_option maxHeartbeats 2000000 in
/-- The weights the region reads are the reference's transposed weight stage of the same argument. -/
theorem wt_eq (c : Dev nD) :
    (V m c main_v16 : S128x128.Idx → EReal)
      = Cert.ReferenceIdeal.Read.val_main_v20 (F := Ideal) (m ((c.tc : Thread nD τ).loc main_arg5)) := by
  dsimp only [V, hostOps0]
  after_results
  rfl

set_option maxHeartbeats 2000000 in
/-- The bias array the region reads is the bias argument reshaped to one row. -/
theorem bias_eq (c : Dev nD) :
    (V m c main_v17 : S1x128.Idx → EReal)
      = shapeCast S1x128 (m ((c.tc : Thread nD τ).loc main_arg6) : S128.Idx → EReal) shapeCasts_S128_S1x128 := by
  dsimp only [V, hostOps0]
  after_results
  rfl

end Cert.KernelIdeal.HostPrefix

end
-- ==== Proof.KernelValue.lean ====
/-
  The kernel's result as a function of its seven arguments.

  After the run the output array is the layer's output of the five arrays the region finds (`Blocks.final`). The
  region finds the features and the self-loop column as launched, and the three host-computed arrays at the terms
  `HostPrefix` names: the aggregated messages (the reference's own scatter-add term of the same arguments), the
  transposed weights (the reference's own transpose stage), and the bias reshaped to one row — which, read back
  column by column, is the bias. Substituting, the kernel's result is the layer's output of the arguments, stated
  with the very terms the reference's result is stated with, so that the two programs' posts are one term.
-/
import proofs.«182071_j22101901705838_2_alg».proof.Proof.Blocks
import proofs.«182071_j22101901705838_2_alg».proof.Proof.HostPrefix
import Idealize.ShloMosaic.Lib.ValueLayout

noncomputable section

namespace Cert.KernelIdeal.KernelValue

open Cert.KernelIdeal Cert.KernelIdeal.Gen Idealize.ShloMosaic Idealize.ShloMosaic.TcCoe Idealize.SL.Sem
open Idealize.ShloMosaic.ValueIdx

variable (m : (ℓ : Loc nD τ sig) → Buf (Elt Ideal) ℓ) (ρ : Dev nD → PrngReg)

/-- The layer's output of the kernel's arguments on core `c`: features, self-loop column, the messages
    `(w + 1) · x[src]` summed into their destination rows, the weights transposed, the bias. -/
def layer (c : Dev nD) : S50000x128.Idx → EReal :=
  Cert.Layer.out (m ((c.tc : Thread nD τ).loc main_arg0)) (m ((c.tc : Thread nD τ).loc main_arg1))
    (Cert.ReferenceIdeal.Read.val_main_v14 (F := Ideal) (m ((c.tc : Thread nD τ).loc main_arg0))
      (m ((c.tc : Thread nD τ).loc main_arg2)) (m ((c.tc : Thread nD τ).loc main_arg3))
      (m ((c.tc : Thread nD τ).loc main_arg4)))
    (Cert.ReferenceIdeal.Read.val_main_v20 (F := Ideal) (m ((c.tc : Thread nD τ).loc main_arg5)))
    (m ((c.tc : Thread nD τ).loc main_arg6))

/-- A vector reshaped to one row and read back column by column is the vector. -/
theorem rowOf_reshape (b : S128.Idx → EReal) : Blocks.rowOf (shapeCast S1x128 b shapeCasts_S128_S1x128) = b := by
  funext j
  obtain ⟨q, rfl⟩ : ∃ q : Fin 128, j = ix1 q := ⟨j 0, eq_ix1 j⟩
  exact shapeCast_a_1a_apply b shapeCasts_S128_S1x128 (0 : Fin 1) q

/-- After the run the output array is the layer's output of the arguments: the region finds the features and the
    self-loop column as launched and the three host-computed arrays at the terms `HostPrefix` names. -/
theorem final (c : Dev nD) : (dats m 0 c).arrAt 5 cfg0.N = layer m c := by
  have h := Blocks.final m c (m ((c.tc : Thread nD τ).loc main_arg0)) (m ((c.tc : Thread nD τ).loc main_arg1))
    (Cert.ReferenceIdeal.Read.val_main_v14 (F := Ideal) (m ((c.tc : Thread nD τ).loc main_arg0))
      (m ((c.tc : Thread nD τ).loc main_arg2)) (m ((c.tc : Thread nD τ).loc main_arg3))
      (m ((c.tc : Thread nD τ).loc main_arg4)))
    (Cert.ReferenceIdeal.Read.val_main_v20 (F := Ideal) (m ((c.tc : Thread nD τ).loc main_arg5)))
    (shapeCast S1x128 (m ((c.tc : Thread nD τ).loc main_arg6) : S128.Idx → EReal) shapeCasts_S128_S1x128)
    (V_main_arg0 m c) (V_main_arg1 m c) (HostPrefix.agg_eq m c) (HostPrefix.wt_eq m c) (HostPrefix.bias_eq m c)
  rw [h]
  unfold Blocks.result layer
  rw [rowOf_reshape]

/-- Every weakly fair execution of the kernel program terminates with the result array at the layer's output of
    the arguments and the arguments unchanged. -/
theorem run : θ_run defs (onTc (τ := τ) (main (F := Ideal))) ⟨m, fun _ => 0, ρ⟩ fun r => ∀ c : Dev nD,
      r.2.mem ((c : Thread nD τ).loc main_v18) = layer m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono
    (fun r h c => ⟨(h c).1.trans (final m c), (h c).2⟩)
    (Cert.KernelIdeal.Value.run_blocks m ρ)

end Cert.KernelIdeal.KernelValue

end
-- ==== Proof.Reference.lean ====
/-
  The reference program's result is the layer specification.

  The reference computes, on the host, `h = x · (s + 1) + agg` entry by entry (the column `s + 1` repeated along each
  row), then the matrix product of `h` with the transposed weights, then adds the bias repeated down the rows. Read
  at an entry `(r, q)`: the product is the sum over the contracted index `k` of `h r k · wt k q`, and the bias term is
  `b q`. That is `Cert.Layer.out` at `(r, q)`, with `agg` the reference's own scatter-added messages and `wt` its own
  transposed weight stage, both left unopened.
-/
import proofs.«182071_j22101901705838_2_alg».proof.Proof.Gen.ReferenceIdeal.Read
import proofs.«182071_j22101901705838_2_alg».proof.Proof.Layer

noncomputable section

open scoped BigOperators

namespace Cert.ReferenceIdeal.RefValue

open Cert.ReferenceIdeal Cert.ReferenceIdeal.Read Idealize.ShloMosaic Idealize.ShloMosaic.ValueIdx

/-- The reference's last stage, as a function of the seven arguments, is the layer specification of the features,
    the self-loop column, the reference's aggregated messages, its transposed weights and the bias. -/
theorem result_eq (x0 : (⟨S50000x128, .f32⟩ : BufTy).Contents (Elt Ideal)) (x1 : (⟨S50000x1, .f32⟩ : BufTy).Contents (Elt Ideal))
    (x2 : (⟨S800000, .f32⟩ : BufTy).Contents (Elt Ideal)) (x3 x4 : (⟨S800000, .i32⟩ : BufTy).Contents (Elt Ideal))
    (x5 : (⟨S128x128, .f32⟩ : BufTy).Contents (Elt Ideal)) (x6 : (⟨S128, .f32⟩ : BufTy).Contents (Elt Ideal)) :
    val_main_v24 (F := Ideal) x0 x1 x2 x3 x4 x5 x6
      = Cert.Layer.out x0 x1 (val_main_v14 (F := Ideal) x0 x2 x3 x4) (val_main_v20 (F := Ideal) x5) x6 := by
  funext i
  obtain ⟨r, q, rfl⟩ : ∃ (r : Fin 50000) (q : Fin 128), i = ix2 r q := ⟨i 0, i 1, eq_ix2 i⟩
  rw [Cert.Layer.out_apply, val_main_v24_apply, val_main_v21_apply, val_main_v23_apply, val_main_v22_apply]
  unfold Cert.Layer.entry
  have hb : idx_main_v22 (idx_main_v23 (ix2 r q)) = ix1 q :=
    funext fun a => Fin.ext (by match a with | ⟨0, _⟩ => rfl)
  rw [hb]
  show (∑ k : Fin 128, _) + _ = (∑ k : Fin 128, _) + _
  congr 1
  refine Finset.sum_congr rfl fun k _ => ?_
  have hl : lidx_main_v21 (ix2 r q) k = ix2 r k :=
    funext fun a => Fin.ext (by match a with | ⟨0, _⟩ => rfl | ⟨1, _⟩ => rfl)
  have hr : ridx_main_v21 (ix2 r q) k = ix2 k q :=
    funext fun a => Fin.ext (by match a with | ⟨0, _⟩ => rfl | ⟨1, _⟩ => rfl)
  have hs : idx_main_v17 (ix2 r k) = ix2 r (0 : Fin 1) :=
    funext fun a => Fin.ext (by match a with | ⟨0, _⟩ => rfl | ⟨1, _⟩ => rfl)
  rw [hl, hr, val_main_v19_apply, val_main_v18_apply, val_main_v17_apply, val_main_v16_apply, val_main_v15_apply,
    val_main_cst_2_apply, hs]
  rfl

end Cert.ReferenceIdeal.RefValue

end
-- ==== Proof.lean ====
/-
  One graph-convolution layer: a tiled kernel against its array-level reference, over the extended reals.

  Both programs first form, on the host and by the same operations, the messages `(w + 1) · x[src]` and sum them
  into their destination rows (`agg`). The reference then computes `(x · (s + 1) + agg) · Wᵀ + b` on whole arrays.
  The kernel computes the same expression 5000 rows at a time over a grid of ten points, the weights transposed
  and the bias reshaped on the host beforehand; before the matrix product it narrows its left operand and the
  weights to a 16-bit format, which over the extended reals changes nothing, and its product accumulates into
  zero, which is the plain contraction. Entry by entry both results are

      ( Σ_k ( x r k · (s r + 1) + agg r k ) · W q k ) + b q

  with the operations applied in the same order, so no law of the extended reals that needs finite entries is
  used and the precondition is never opened.

  The modules: `Layer` states the entry and the output array; `Body` reads the kernel body's stored value at an
  entry; `Blocks` places the ten row blocks and concludes what the output array holds after the run;
  `HostPrefix` names what the region finds in the three host-computed arrays; `KernelValue` puts these together
  as the kernel's run; `Reference` reads the reference's last stage as the same output array. Here the five
  claims are assembled: the two kernel frames are the generated frame runs, the reference's frame is its generated
  run with the result dropped, the idealization rewrote nothing, and the two runs end at one term.
-/
import proofs.«182071_j22101901705838_2_alg».proof.Defs
import proofs.«182071_j22101901705838_2_alg».proof.Proof.Gen.Kernel
import proofs.«182071_j22101901705838_2_alg».proof.Proof.Gen.Kernel.Skeleton
import proofs.«182071_j22101901705838_2_alg».proof.Proof.Gen.Kernel.Launch
import proofs.«182071_j22101901705838_2_alg».proof.Proof.Gen.Kernel.Points
import proofs.«182071_j22101901705838_2_alg».proof.Proof.Gen.Kernel.Frame
import proofs.«182071_j22101901705838_2_alg».proof.Proof.Gen.KernelIdeal
import proofs.«182071_j22101901705838_2_alg».proof.Proof.Gen.KernelIdeal.Skeleton
import proofs.«182071_j22101901705838_2_alg».proof.Proof.Gen.KernelIdeal.Launch
import proofs.«182071_j22101901705838_2_alg».proof.Proof.Gen.KernelIdeal.Points
import proofs.«182071_j22101901705838_2_alg».proof.Proof.Gen.KernelIdeal.Frame
import proofs.«182071_j22101901705838_2_alg».proof.Proof.Gen.ReferenceIdeal
import proofs.«182071_j22101901705838_2_alg».proof.Proof.Gen.Pre_finite_inputs
import proofs.«182071_j22101901705838_2_alg».proof.Proof.Gen.KernelIdeal.Value
import proofs.«182071_j22101901705838_2_alg».proof.Proof.Gen.ReferenceIdeal.Run
import proofs.«182071_j22101901705838_2_alg».proof.Proof.Gen.ReferenceIdeal.Read
import proofs.«182071_j22101901705838_2_alg».proof.Proof.KernelValue
import proofs.«182071_j22101901705838_2_alg».proof.Proof.Reference
import Idealize.ShloMosaic.Adequacy
import Idealize.ShloMosaic.Init

noncomputable section

namespace Cert.Proof

open Idealize.ShloMosaic Idealize.SL.Sem Cert.Kernel

/-- The word-level kernel runs and leaves its arguments unchanged: the generated frame run. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The reference runs and leaves its arguments unchanged: its generated run, the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the seven arguments both programs end with the result array at the layer's output
    of those arguments: the kernel by `KernelValue.run`, the reference by its generated run read as the same
    output array (`RefValue.result_eq`). -/
theorem algebraic : Cert.algebraic_KernelIdeal_ReferenceIdeal := by
  intro m ρ m' ρ' _ hagree
  refine ⟨fun c => Cert.KernelIdeal.KernelValue.layer m c, Cert.KernelIdeal.KernelValue.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6⟩ := hagree c
  rw [Cert.ReferenceIdeal.Read.val_main_v24_eq, Cert.ReferenceIdeal.RefValue.result_eq, h0, h1, h2, h3, h4, h5, h6]
  rfl

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
